-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S16x4096 .f32) (main_arg4 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16384x4096 : Shape := ⟨2, ![16384, 4096]⟩
abbrev S1x4096 : Shape := ⟨2, ![1, 4096]⟩
abbrev S16384x16 : Shape := ⟨2, ![16384, 16]⟩
abbrev S1024x1024 : Shape := ⟨2, ![1024, 1024]⟩
abbrev S1024x16 : Shape := ⟨2, ![1024, 16]⟩
abbrev S1x1024 : Shape := ⟨2, ![1, 1024]⟩

abbrev nBuf : Space → Nat
  | .hbm => 15
  | .vmem => 13
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16384x4096, .f32⟩
  | .hbm, ⟨6, _⟩ => ⟨S1x4096, .f32⟩
  | .hbm, ⟨7, _⟩ => ⟨S16384x4096, .bf16⟩
  | .hbm, ⟨8, _⟩ => ⟨S4096x4096, .bf16⟩
  | .hbm, ⟨9, _⟩ => ⟨S16x4096, .bf16⟩
  | .hbm, ⟨10, _⟩ => ⟨S4096x16, .bf16⟩
  | .hbm, ⟨11, _⟩ => ⟨S16384x16, .f32⟩
  | .hbm, ⟨12, _⟩ => ⟨S16384x16, .bf16⟩
  | .hbm, ⟨13, _⟩ => ⟨S16384x4096, .f32⟩
  | .hbm, ⟨14, _⟩ => ⟨S4x4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x16, .bf16⟩
  | .local _ .vmem, ⟨5, _⟩ => ⟨S1024x16, .bf16⟩
  | .local _ .vmem, ⟨6, _⟩ => ⟨S1024x16, .bf16⟩
  | .local _ .vmem, ⟨7, _⟩ => ⟨S1024x16, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x4096x4096_S16384x4096 : S4x4096x4096.ShapeCasts S16384x4096
  shapeCasts_S4096_S1x4096 : S4096.ShapeCasts S1x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S16384x4096_S16x4096_S16384x16_1_1_0_0_n_n_wf : DotDims.WF S16384x4096 S16x4096 S16384x16 [1] [1] [0] [0] [] []
  dot_S1024x1024_S1024x1024_S1024x1024_1_1_0_0_n_n_wf : DotDims.WF S1024x1024 S1024x1024 S1024x1024 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S16384x16.size a
  hwx0_2 : ∀ i : grid0.Coords, EltTy.bits .bf16 = 32 ∨ (Rect.block (s := S16384x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .bf16 = 32 ∨ (Rect.block (s := S4096x16) S1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x4096.size a
  hwx0_5 : ∀ i : grid0.Coords, EltTy.bits .f32 = 32 ∨ (Rect.block (s := S16384x4096) S1024x1024.size (cc0_transform_5 i) (hinb0_5 i)).WholeWords (EltTy.packing .f32)

variable [Facts₀]

def dot_S16384x4096_S16x4096_S16384x16_1_1_0_0_n_n : DotDims S16384x4096 S16x4096 S16384x16 where
  lhsContracting := [1]
  rhsContracting := [1]
  lhsNonContracting := [0]
  rhsNonContracting := [0]
  lhsBatch := []
  rhsBatch := []
  wf := dot_S16384x4096_S16x4096_S16384x16_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.Pieces.lean ====
import proofs.«142753_j39865886442050_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

/-
  What each control case of the kernel body leaves behind, as values of the body's three stored expressions.

  The body keeps a 1024 × 1024 accumulator across the four grid points that share an output block. At the first of
  them it stores the reset value and then the first accumulation step over it; at the two middle ones one more step
  over what the point before left; at the last one more step and then the epilogue of that sum into the output block.
-/
namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First point of a run of four: the accumulator ends at one step over the reset value. -/
theorem scratch_first (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1024x16 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : cond0_0 i) (hc1 : ¬cond0_1 i) (x0 : Vec F S1024x1024 .bf16) (x1 : Vec F S1024x1024 .bf16) (x2 : Vec F S1024x16 .bf16) (x3 : Vec F S1024x16 .bf16) (x4 : Vec F S1x1024 .f32) :
    sout0_A_0 c i a3 h3 a4 h4 a5 h5 a6 h6 a7 h7 a8 h8 a9 h9 hc0 hc1 x0 x1 x2 x3 x4 = k0_pay2 (k0_pay1 (F := F)) x0 x1 := by
  unfold sout0_A_0
  rw [View.read_writes_eq_canon _ _ _ (scover0_A_0 c i a3 h3 a4 h4 a5 h5 a6 h6 a7 h7 a8 h8 a9 h9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- A middle point: one more step over what the point before left. -/
theorem scratch_middle (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1024x16 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : ¬cond0_1 i) (x0 : Vec F S1024x1024 .bf16) (x1 : Vec F S1024x1024 .bf16) (x2 : Vec F S1024x16 .bf16) (x3 : Vec F S1024x16 .bf16) (x4 : Vec F S1x1024 .f32) (xs0 : Vec F S1024x1024 .f32) :
    sout0_B_0 c i a3 h3 a4 h4 a5 h5 a6 h6 a7 h7 a8 h8 a9 h9 hc0 hc1 x0 x1 x2 x3 x4 xs0 = k0_pay2 xs0 x0 x1 := by
  unfold sout0_B_0
  rw [View.read_writes_eq_canon _ _ _ (scover0_B_0 c i a3 h3 a4 h4 a5 h5 a6 h6 a7 h7 a8 h8 a9 h9 hc0 hc1 x0 x1 x2 x3 x4 xs0)]
  unfold kernelRun0_B
  dsimp only
  sl_unfold_words
  rw [View.canon_unit_zero (S := S1024x1024) hz]
  simp only [View.readAt_eq_ld, h3.read_unread, h4.read_unread, h9.read_unread, View.ld_unit_zero (S := S1024x1024) hz]

/-- The last point: the accumulator takes one more step over what the point before left, -/
theorem scratch_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1024x16 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i) (x0 : Vec F S1024x1024 .bf16) (x1 : Vec F S1024x1024 .bf16) (x2 : Vec F S1024x16 .bf16) (x3 : Vec F S1024x16 .bf16) (x4 : Vec F S1x1024 .f32) (xs0 : Vec F S1024x1024 .f32) :
    sout0_C_0 c i a3 h3 a4 h4 a5 h5 a6 h6 a7 h7 a8 h8 a9 h9 hc0 hc1 x0 x1 x2 x3 x4 xs0 = k0_pay2 xs0 x0 x1 := by
  unfold sout0_C_0
  rw [View.read_writes_eq_canon _ _ _ (scover0_C_0 c i a3 h3 a4 h4 a5 h5 a6 h6 a7 h7 a8 h8 a9 h9 hc0 hc1 x0 x1 x2 x3 x4 xs0)]
  unfold kernelRun0_C
  dsimp only
  sl_unfold_words
  rw [View.canon_unit_zero (S := S1024x1024) hz]
  simp only [View.readAt_eq_ld, h3.read_unread, h4.read_unread, h9.read_unread, View.ld_unit_zero (S := S1024x1024) hz]

/-- and the output block is the epilogue of that sum. -/
theorem output_last (c : Dev nD) (i : grid0.Coords) (a3 : Memref sig .tc .vmem S1024x1024 .bf16) (h3 : a3.IsWhole) (a4 : Memref sig .tc .vmem S1024x1024 .bf16) (h4 : a4.IsWhole) (a5 : Memref sig .tc .vmem S1024x16 .bf16) (h5 : a5.IsWhole) (a6 : Memref sig .tc .vmem S1024x16 .bf16) (h6 : a6.IsWhole) (a7 : Memref sig .tc .vmem S1x1024 .f32) (h7 : a7.IsWhole) (a8 : Memref sig .tc .vmem S1024x1024 .f32) (h8 : a8.IsWhole) (a9 : Memref sig .tc .vmem S1024x1024 .f32) (h9 : a9.IsWhole) (hc0 : ¬cond0_0 i) (hc1 : cond0_1 i) (x0 : Vec F S1024x1024 .bf16) (x1 : Vec F S1024x1024 .bf16) (x2 : Vec F S1024x16 .bf16) (x3 : Vec F S1024x16 .bf16) (x4 : Vec F S1x1024 .f32) (xs0 : Vec F S1024x1024 .f32) :
    out0_C_5 c i a3 h3 a4 h4 a5 h5 a6 h6 a7 h7 a8 h8 a9 h9 hc0 hc1 x0 x1 x2 x3 x4 xs0 = k0_pay3 x2 x3 (k0_pay2 xs0 x0 x1) x4 := by
  unfold out0_C_5
  rw [View.read_writes_eq_canon _ _ _ (cover0_C_5 c i a3 h3 a4 h4 a5 h5 a6 h6 a7 h7 a8 h8 a9 h9 hc0 hc1 x0 x1 x2 x3 x4 xs0)]
  unfold kernelRun0_C
  dsimp only
  sl_unfold_words
  rw [View.canon_unit_zero (S := S1024x1024) hz]
  simp only [View.readAt_eq_ld, h3.read_unread, h4.read_unread, h5.read_unread, h6.read_unread, h7.read_unread, h9.read_unread,
    View.ld_unit_zero (S := S1024x1024) hz, View.ld_unit_zero (S := S1024x16) hz, View.ld_unit_zero (S := S1x1024) hz,
    View.readCov_unit_zero (S := S1024x1024) _ hz]

end Cert.KernelIdeal.Pieces

end
-- ==== Proof.Points.lean ====
/-
  The accumulator and the output block, point by point along the grid.

  The grid's points are numbered row-major; the last grid axis (the four 1024-column stretches of the contraction) is
  the point number modulo 4. At a point that is 0 modulo 4 the accumulator is one step over the reset value; at every
  other point it is one step over what the point before left; and at a point that is 3 modulo 4 the output block is
  the epilogue of the accumulator. Each step reads the point's own activation block and weight block.
-/
import proofs.«142753_j39865886442050_2_alg».proof.Proof.Pieces

set_option maxRecDepth 16384

noncomputable section

open Idealize.ShloMosaic Idealize.ShloMosaic.TcCoe Idealize.SL.Sem

namespace Cert.KernelIdeal.Points

open Cert.KernelIdeal Cert.KernelIdeal.Gen Cert.KernelIdeal.Pieces

variable {F : FTy → Type} [FloatOps F]
variable (m : (ℓ : Loc nD τ sig) → Buf (Elt F) ℓ)

/-- At a point that starts a run of four, the accumulator is one step over the reset value. -/
theorem acc_first (c : Dev nD) (t : Fin cfg0.N) (h0 : t.val % 4 = 0) :
    (outsAt0 m c t.val t.isLt).2 = k0_pay2 (k0_pay1 (F := F)) (iblk m c 0 t) (iblk m c 1 t) := by
  have h1 : ¬t.val % 4 = 3 := by omega
  rw [outsAt0_A m c t h0 h1]
  dsimp only
  exact scratch_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)

/-- At any other point it is one step over what the point before left. -/
theorem acc_next (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    exact scratch_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t)
      (outsAt0 m c (t.val - 1) (Nat.lt_of_le_of_lt (Nat.sub_le _ _) t.isLt)).2
  · rw [outsAt0_B m c t h0 h1]
    dsimp only
    exact scratch_middle c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t)
      (outsAt0 m c (t.val - 1) (Nat.lt_of_le_of_lt (Nat.sub_le _ _) t.isLt)).2

/-- At a point that ends a run of four, the output block is the epilogue of the accumulator after that point. -/
theorem out_last (c : Dev nD) (t : Fin cfg0.N) (h3 : t.val % 4 = 3) :
    (outsAt0 m c t.val t.isLt).1
      = k0_pay3 (iblk m c 2 t) (iblk m c 3 t) (outsAt0 m c t.val t.isLt).2 (iblk m c 4 t) := by
  have h0 : ¬t.val % 4 = 0 := by omega
  rw [acc_next m c t h0, outsAt0_C m c t h0 h3]
  dsimp only
  exact output_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) (iblk m c 3 t) (iblk m c 4 t)
    (outsAt0 m c (t.val - 1) (Nat.lt_of_le_of_lt (Nat.sub_le _ _) t.isLt)).2

end Cert.KernelIdeal.Points

end
-- ==== Proof.LibContractRows.lean ====
/-
  Rows against rows: the contraction `[M, K] × [N, K] → [M, N]` over the LAST axis of both operands, read at an index.

  For the dimension numbers "contract axis 1 with axis 1, no batch axis" (`DotDims.transposedRhs M K N`) the entry
  `(p, q)` of the product is `Σ_k l[p,k] · r[q,k]`: row `p` of the left operand against row `q` of the right one. The
  contraction's own index type has one axis of extent `K`; the sum is re-indexed over `Fin K` through that axis, and the
  operand indices the dimension numbers compute are then `(p, k)` and `(q, k)`. Stated for a matrix product into a zero
  accumulator and for the host's `dot_general`, on the extended reals, where both are that plain sum.
-/
import Idealize.ShloMosaic.PureOps.Ideal.Laws
import Idealize.ShloMosaic.Lib.ValueIdx

noncomputable section

namespace Idealize.ShloMosaic.ContractRows

open Idealize.ShloMosaic Idealize.ShloMosaic.ValueIdx

variable {M K N : Nat}

/-- The left operand's index keeps the output's row. -/
theorem lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's index runs along its last axis with the contraction. -/
theorem lhs_col (j : (⟨2, ![M, N]⟩ : Shape).Idx) (k : (DotDims.transposedRhs M K N).contr.Idx) :
    ((DotDims.transposedRhs M K N).lhsIdx j k 1).val = (k ⟨0, Nat.zero_lt_one⟩).val :=
  (DotDims.transposedRhs M K N).lhsIdx_val_of_single rfl j k

/-- The right operand's index takes its row from the output's column. -/
theorem rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's index runs along its last axis with the contraction. -/
theorem rhs_col (j : (⟨2, ![M, N]⟩ : Shape).Idx) (k : (DotDims.transposedRhs M K N).contr.Idx) :
    ((DotDims.transposedRhs M K N).rhsIdx j k 1).val = (k ⟨0, Nat.zero_lt_one⟩).val :=
  (DotDims.transposedRhs M K N).rhsIdx_val_of_single rfl j k

/-- THE SUM: over the contraction's index it is the sum over `k : Fin K` of row `p` against row `q`. -/
theorem sum_rows (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row _ _
      | ⟨1, _⟩ => exact (lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, rows against rows, at `(p, q)`. -/
theorem matmul_zero_apply {φ₁ φ₂ : FTy} (prec : Option ContractPrecision)
    (l : FVec Ideal (⟨2, ![M, K]⟩ : Shape) φ₁) (r : FVec Ideal (⟨2, ![N, K]⟩ : Shape) φ₂) (p : Fin M) (q : Fin N) :
    FloatOps.matmul (DotDims.transposedRhs M K N) prec l r (constant (⟨2, ![M, N]⟩ : Shape) .f32 0x00000000#32) (ix2 p q)
      = ∑ k : Fin K, l (ix2 p k) * r (ix2 q k) :=
  (Ideal.matmul_constant_zero_apply (DotDims.transposedRhs M K N) prec l r (ix2 p q)).trans (sum_rows l r p q)

/-- The host's `dot_general`, rows against rows, at `(p, q)`. -/
theorem dotGeneral_apply {φ₁ φ₂ : FTy} (prec : Option ContractPrecision) (sched : HostSchedule)
    (l : FVec Ideal (⟨2, ![M, K]⟩ : Shape) φ₁) (r : FVec Ideal (⟨2, ![N, K]⟩ : Shape) φ₂) (p : Fin M) (q : Fin N) :
    FloatOps.dotGeneral (DotDims.transposedRhs M K N) prec sched l r (ix2 p q) = ∑ k : Fin K, l (ix2 p k) * r (ix2 q k) :=
  (Ideal.dotGeneral_apply (DotDims.transposedRhs M K N) prec sched l r (ix2 p q)).trans (sum_rows l r p q)

end Idealize.ShloMosaic.ContractRows

end
-- ==== Proof.Spec.lean ====
/-
  The mathematics of the low-rank-adapted linear layer, free of any program.

  For an activation matrix `x` of 16384 rows and 4096 columns, a weight `w` (4096 × 4096, one row per output
  feature), a bias row, a rank-16 intermediate `mid` (16384 × 16) and an up-projection `b` (4096 × 16), entry
  `(p, q)` of the layer's output is

      (Σ_d x[p,d] · w[q,d] + bias[q]) + (Σ_r mid[p,r] · b[q,r]) · two.

  The only law used on the way is that a sum over 4096 columns may be taken one stretch of 1024 columns after the
  other, starting from zero: addition of extended reals is commutative and associative, so no finiteness is needed.
-/
import Idealize.ShloMosaic.PureOps.Ideal
import Idealize.ShloMosaic.Lib.ValueIdx

noncomputable section

open scoped BigOperators

namespace Cert.LoraSpec

open Idealize.ShloMosaic Idealize.ShloMosaic.ValueIdx

/-- The literal both programs scale the low-rank term by (the f32 word of 2.0), as an extended real. -/
abbrev two : EReal := Ideal.ofBits .f32 0x40000000#32

/-- Column `1024·k + d` of a 4096-wide row: entry `d` of the row's `k`-th stretch of 1024 columns. -/
abbrev col (k : Fin 4) (d : Fin 1024) : Fin 4096 := ⟨1024 * k.val + d.val, by omega⟩

/-- A sum over 4096 columns is the sum, over the four stretches of 1024 columns, of each stretch's sum. -/
theorem sum_stretches {M : Type*} [AddCommMonoid M] (f : Fin 4096 → M) :
    ∑ d, f d = ∑ k : Fin 4, ∑ d : Fin 1024, f (col k d) := by
  rw [← Equiv.sum_comp (finProdFinEquiv : Fin 4 × Fin 1024 ≃ Fin 4096) f, Fintype.sum_prod_type]
  refine Finset.sum_congr rfl fun k _ => Finset.sum_congr rfl fun d _ => congrArg f (Fin.ext ?_)
  show d.val + 1024 * k.val = 1024 * k.val + d.val
  omega

/-- Accumulating the four stretches one after the other, from zero, gives the whole sum. -/
theorem accumulate_four {M : Type*} [AddCommMonoid M] (f : Fin 4096 → M) :
    (((0 + ∑ d : Fin 1024, f (col 0 d)) + ∑ d : Fin 1024, f (col 1 d)) + ∑ d : Fin 1024, f (col 2 d))
        + ∑ d : Fin 1024, f (col 3 d) = ∑ d, f d := by
  rw [sum_stretches, Fin.sum_univ_four, zero_add]

/-- The layer's output, entry by entry, as a function of the five matrices it is computed from. -/
def layer (x : (⟨2, ![16384, 4096]⟩ : Shape).Idx → EReal) (w : (⟨2, ![4096, 4096]⟩ : Shape).Idx → EReal)
    (mid : (⟨2, ![16384, 16]⟩ : Shape).Idx → EReal) (b : (⟨2, ![4096, 16]⟩ : Shape).Idx → EReal)
    (bias : (⟨2, ![1, 4096]⟩ : Shape).Idx → EReal) (two : EReal) : (⟨2, ![16384, 4096]⟩ : Shape).Idx → EReal :=
  fun i => ((∑ d : Fin 4096, x (ix2 (i 0) d) * w (ix2 (i 1) d)) + bias (ix2 (0 : Fin 1) (i 1)))
    + (∑ r : Fin 16, mid (ix2 (i 0) r) * b (ix2 (i 1) r)) * two

end Cert.LoraSpec

end
-- ==== Proof.Payload.lean ====
/-
  The three values the kernel body stores, read at one entry of a 1024 × 1024 block, on the extended reals.

  * the reset value is zero;
  * an accumulation step adds, to the accumulator's entry `(p, q)`, row `p` of the activation block against row `q`
    of the weight block: `acc[p,q] + Σ_d x[p,d] · w[q,d]` over the block's 1024 columns;
  * the epilogue is `(acc[p,q] + bias[0,q]) + (Σ_r mid[p,r] · b[q,r]) · 2`, the rank-16 intermediate's row `p` against
    the up-projection's row `q`.
  A change of float format is the identity on extended reals, and a matrix product into a zero accumulator is the plain sum.
-/
import proofs.«142753_j39865886442050_2_alg».proof.Proof.Gen.KernelIdeal.Skeleton
import proofs.«142753_j39865886442050_2_alg».proof.Proof.LibContractRows
import proofs.«142753_j39865886442050_2_alg».proof.Proof.Spec
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx Cert.LoraSpec

/-- The reset value is zero at every entry. -/
theorem reset_apply (j : S1024x1024.Idx) : k0_pay1 (F := Ideal) j = 0 := by
  unfold k0_pay1
  rw [shapeCast_self]
  exact Ideal.ofBits_zero_f32

/-- One accumulation step at entry `(p, q)`. -/
theorem step_apply (acc : FVec Ideal S1024x1024 .f32) (x w : FVec Ideal S1024x1024 .bf16) (p q : Fin 1024) :
    k0_pay2 acc x w (ix2 p q) = acc (ix2 p q) + ∑ d : Fin 1024, x (ix2 p d) * w (ix2 q d) := by
  unfold k0_pay2
  simp only [shapeCast_self]
  exact congrArg (acc (ix2 p q) + ·) (ContractRows.matmul_zero_apply none x w p q)

/-- The epilogue at entry `(p, q)`. -/
theorem epilogue_apply (mid : FVec Ideal S1024x16 .bf16) (b : FVec Ideal S1024x16 .bf16) (acc : FVec Ideal S1024x1024 .f32)
    (bias : FVec Ideal S1x1024 .f32) (p q : Fin 1024) :
    k0_pay3 mid b acc bias (ix2 p q)
      = (acc (ix2 p q) + bias (ix2 (0 : Fin 1) q)) + (∑ r : Fin 16, mid (ix2 p r) * b (ix2 q r)) * two := by
  unfold k0_pay3
  simp only [shapeCast_self]
  refine congrArg₂ (· + ·) (congrArg (acc (ix2 p q) + ·) ?_) (congrArg (· * two) ?_)
  · exact broadcastTo_1b_ab_apply bias _ p q
  · exact ContractRows.matmul_zero_apply none mid b p q

end Cert.KernelIdeal.Payload

end
-- ==== Proof.Blocks.lean ====
/-
  Where the windows' blocks sit, and what a block's entry is in the whole array.

  Point number `t` of the 16 × 4 × 4 grid has row-tile `t / 16`, column-tile `(t / 4) % 4` and contraction stretch
  `t % 4`. The activation block is tile (row-tile, stretch) of the 16384 × 4096 matrix, the weight block tile
  (column-tile, stretch) of the 4096 × 4096 one, the rank-16 intermediate's block rows of the row-tile, the
  up-projection's block rows of the column-tile, the bias block the column-tile's stretch of the one-row bias, and the
  output block tile (row-tile, column-tile). Entry `y` of a block sits at block index × block size + `y` on each axis.
-/
import proofs.«142753_j39865886442050_2_alg».proof.Proof.Gen.KernelIdeal.Frame
import Idealize.ShloMosaic.Lib.ValueIdx

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The block index of every window at every point, from the point's number: decided over the 256 points. -/
theorem where_blocks : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = 0
    ∧ win0_3.index t (0 : Fin 2) = t.val / 4 % 4 ∧ win0_3.index t (1 : Fin 2) = 0
    ∧ win0_4.index t (0 : Fin 2) = 0 ∧ win0_4.index t (1 : Fin 2) = t.val / 4 % 4
    ∧ win0_5.index t (0 : Fin 2) = t.val / 16 ∧ win0_5.index t (1 : Fin 2) = t.val / 4 % 4 :=
  (by decide +kernel : ∀ t : Fin grid0.N, _)

/-- The activation block at point `t`: rows of the row-tile, columns of the stretch. -/
theorem x_block (c : Dev nD) (t : Fin cfg0.N) (p d : Fin 1024) (P : Fin 16384) (D : Fin 4096)
    (hP : P.val = 1024 * (t.val / 16) + p.val) (hD : D.val = 1024 * (t.val % 4) + d.val) :
    (iblk m c 0 t : Vec F S1024x1024 .bf16) (ix2 p d) = V m c main_v2 (ix2 P D) := by
  obtain ⟨h0, h1, -⟩ := where_blocks t
  unfold iblk
  rw [View.read_apply]
  show V m c main_v2 _ = V m c main_v2 (ix2 P D)
  refine congrArg (V m c main_v2) (funext fun a => Fin.ext ?_)
  match a with
  | ⟨0, _⟩ => show win0_0.index t 0 * 1024 + 1 * p.val = P.val; rw [h0, hP]; omega
  | ⟨1, _⟩ => show win0_0.index t 1 * 1024 + 1 * d.val = D.val; rw [h1, hD]; omega

/-- The weight block at point `t`: rows of the column-tile, columns of the stretch. -/
theorem w_block (c : Dev nD) (t : Fin cfg0.N) (q d : Fin 1024) (Q : Fin 4096) (D : Fin 4096)
    (hQ : Q.val = 1024 * (t.val / 4 % 4) + q.val) (hD : D.val = 1024 * (t.val % 4) + d.val) :
    (iblk m c 1 t : Vec F S1024x1024 .bf16) (ix2 q d) = V m c main_v3 (ix2 Q D) := by
  obtain ⟨-, -, h0, h1, -⟩ := where_blocks t
  unfold iblk
  rw [View.read_apply]
  show V m c main_v3 _ = V m c main_v3 (ix2 Q D)
  refine congrArg (V m c main_v3) (funext fun a => Fin.ext ?_)
  match a with
  | ⟨0, _⟩ => show win0_1.index t 0 * 1024 + 1 * q.val = Q.val; rw [h0, hQ]; omega
  | ⟨1, _⟩ => show win0_1.index t 1 * 1024 + 1 * d.val = D.val; rw [h1, hD]; omega

/-- The rank-16 intermediate's block at point `t`: rows of the row-tile, all sixteen columns. -/
theorem mid_block (c : Dev nD) (t : Fin cfg0.N) (p : Fin 1024) (r : Fin 16) (P : Fin 16384)
    (hP : P.val = 1024 * (t.val / 16) + p.val) :
    (iblk m c 2 t : Vec F S1024x16 .bf16) (ix2 p r) = V m c main_v7 (ix2 P r) := by
  obtain ⟨-, -, -, -, h0, h1, -⟩ := where_blocks t
  unfold iblk
  rw [View.read_apply]
  show V m c main_v7 _ = V m c main_v7 (ix2 P r)
  refine congrArg (V m c main_v7) (funext fun a => Fin.ext ?_)
  match a with
  | ⟨0, _⟩ => show win0_2.index t 0 * 1024 + 1 * p.val = P.val; rw [h0, hP]; omega
  | ⟨1, _⟩ => show win0_2.index t 1 * 16 + 1 * r.val = r.val; rw [h1]; omega

/-- The up-projection's block at point `t`: rows of the column-tile, all sixteen columns. -/
theorem b_block (c : Dev nD) (t : Fin cfg0.N) (q : Fin 1024) (r : Fin 16) (Q : Fin 4096)
    (hQ : Q.val = 1024 * (t.val / 4 % 4) + q.val) :
    (iblk m c 3 t : Vec F S1024x16 .bf16) (ix2 q r) = V m c main_v5 (ix2 Q r) := by
  obtain ⟨-, -, -, -, -, -, h0, h1, -⟩ := where_blocks t
  unfold iblk
  rw [View.read_apply]
  show V m c main_v5 _ = V m c main_v5 (ix2 Q r)
  refine congrArg (V m c main_v5) (funext fun a => Fin.ext ?_)
  match a with
  | ⟨0, _⟩ => show win0_3.index t 0 * 1024 + 1 * q.val = Q.val; rw [h0, hQ]; omega
  | ⟨1, _⟩ => show win0_3.index t 1 * 16 + 1 * r.val = r.val; rw [h1]; omega

/-- The bias block at point `t`: the column-tile's stretch of the one-row bias. -/
theorem bias_block (c : Dev nD) (t : Fin cfg0.N) (q : Fin 1024) (Q : Fin 4096)
    (hQ : Q.val = 1024 * (t.val / 4 % 4) + q.val) :
    (iblk m c 4 t : Vec F S1x1024 .f32) (ix2 (0 : Fin 1) q) = V m c main_v1 (ix2 (0 : Fin 1) Q) := by
  obtain ⟨-, -, -, -, -, -, -, -, h0, h1, -⟩ := where_blocks t
  unfold iblk
  rw [View.read_apply]
  show V m c main_v1 _ = V m c main_v1 (ix2 (0 : Fin 1) Q)
  refine congrArg (V m c main_v1) (funext fun a => Fin.ext ?_)
  match a with
  | ⟨0, _⟩ => show win0_4.index t 0 * 1 + 1 * 0 = 0; rw [h0]
  | ⟨1, _⟩ => show win0_4.index t 1 * 1024 + 1 * q.val = Q.val; rw [h1, hQ]; omega

end Cert.KernelIdeal.Blocks

end
-- ==== Proof.FlushValue.lean ====
/-
  What the last point of a run of four writes into the output block, entry by entry.

  Over the four points of a run the accumulator's entry `(p, q)` grows from zero by the four stretch sums
  `Σ_d x[P, 1024·k + d] · w[Q, 1024·k + d]` (`k` = 0, 1, 2, 3), where `P` and `Q` are the row and the column of the whole
  arrays that the block's entry `(p, q)` stands for. Taken one after the other from zero they are the whole sum over
  the 4096 columns, and the epilogue adds the bias entry and twice the rank-16 term: the layer's entry `(P, Q)`.
-/
import proofs.«142753_j39865886442050_2_alg».proof.Proof.Points
import proofs.«142753_j39865886442050_2_alg».proof.Proof.Payload
import proofs.«142753_j39865886442050_2_alg».proof.Proof.Blocks

set_option maxRecDepth 16384

noncomputable section

open scoped BigOperators
open Idealize.ShloMosaic Idealize.ShloMosaic.TcCoe Idealize.SL.Sem

namespace Cert.KernelIdeal.FlushValue

open Cert.KernelIdeal Cert.KernelIdeal.Gen Cert.KernelIdeal.Points Cert.KernelIdeal.Payload Cert.KernelIdeal.Blocks
open Idealize.ShloMosaic.ValueIdx Cert.LoraSpec

variable (m : (ℓ : Loc nD τ sig) → Buf (Elt Ideal) ℓ)

/-- The five arrays the region reads, as it finds them, as arrays of extended reals: the flattened activations, the
    weight, the rank-16 intermediate, the up-projection and the one-row bias. -/
abbrev foundX (c : Dev nD) : S16384x4096.Idx → EReal := V m c main_v2
abbrev foundW (c : Dev nD) : S4096x4096.Idx → EReal := V m c main_v3
abbrev foundMid (c : Dev nD) : S16384x16.Idx → EReal := V m c main_v7
abbrev foundB (c : Dev nD) : S4096x16.Idx → EReal := V m c main_v5
abbrev foundBias (c : Dev nD) : S1x4096.Idx → EReal := V m c main_v1

/-- The activation block and the weight block at a point, as blocks of extended reals. -/
abbrev xBlock (c : Dev nD) (t : Fin cfg0.N) : S1024x1024.Idx → EReal := iblk m c 0 t
abbrev wBlock (c : Dev nD) (t : Fin cfg0.N) : S1024x1024.Idx → EReal := iblk m c 1 t

/-- One point's step sum, over the whole arrays: the point's stretch of the contraction. -/
theorem stretch_sum (c : Dev nD) (t : Fin cfg0.N) (k : Fin 4) (hk : t.val % 4 = k.val) (p q : Fin 1024)
    (P : Fin 16384) (Q : Fin 4096) (hP : P.val = 1024 * (t.val / 16) + p.val) (hQ : Q.val = 1024 * (t.val / 4 % 4) + q.val) :
    (∑ d : Fin 1024, xBlock m c t (ix2 p d) * wBlock m c t (ix2 q d))
      = ∑ d : Fin 1024, foundX m c (ix2 P (col k d)) * foundW m c (ix2 Q (col k d)) :=
  Finset.sum_congr rfl fun d _ => congrArg₂ (· * ·)
    (x_block m c t p d P (col k d) hP (by show 1024 * k.val + d.val = 1024 * (t.val % 4) + d.val; rw [hk]))
    (w_block m c t q d Q (col k d) hQ (by show 1024 * k.val + d.val = 1024 * (t.val % 4) + d.val; rw [hk]))

/-- The output block's entry `(p, q)` after the last point `n + 3` of the run that starts at point `n`: the layer's
    entry at the row and column the block's entry stands for. -/
theorem last_point_value (c : Dev nD) (n : ℕ) (h3 : n + 3 < cfg0.N) (hn : n % 4 = 0) (p q : Fin 1024)
    (P : Fin 16384) (Q : Fin 4096) (hP : P.val = 1024 * (n / 16) + p.val) (hQ : Q.val = 1024 * (n / 4 % 4) + q.val) :
    (outsAt0 m c (n + 3) h3).1 (ix2 p q)
      = layer (foundX m c) (foundW m c) (foundMid m c) (foundB m c) (foundBias m c) two (ix2 P Q) := by
  have h2 : n + 2 < cfg0.N := Nat.lt_of_succ_lt h3
  have h1 : n + 1 < cfg0.N := Nat.lt_of_succ_lt h2
  have h0 : n < cfg0.N := Nat.lt_of_succ_lt h1
  have a0 : (outsAt0 m c n h0).2 (ix2 p q) = 0 + (∑ d : Fin 1024, foundX m c (ix2 P (col 0 d)) * foundW m c (ix2 Q (col 0 d))) := by
    refine (congrFun (acc_first m c ⟨n, h0⟩ hn) (ix2 p q)).trans ?_
    refine (step_apply (k0_pay1 (F := Ideal)) (iblk m c 0 ⟨n, h0⟩) (iblk m c 1 ⟨n, h0⟩) p q).trans ?_
    rw [reset_apply]
    exact congrArg ((0 : EReal) + ·)
      (stretch_sum m c ⟨n, h0⟩ 0 (by show n % 4 = 0; omega) p q P Q hP hQ)
  have a1 : (outsAt0 m c (n + 1) h1).2 (ix2 p q) = (0 + (∑ d : Fin 1024, foundX m c (ix2 P (col 0 d)) * foundW m c (ix2 Q (col 0 d)))) + (∑ d : Fin 1024, foundX m c (ix2 P (col 1 d)) * foundW m c (ix2 Q (col 1 d))) := by
    refine (congrFun (acc_next m c ⟨n + 1, h1⟩ (by show ¬(n + 1) % 4 = 0; omega)) (ix2 p q)).trans ?_
    refine (step_apply (outsAt0 m c n h0).2 (iblk m c 0 ⟨n + 1, h1⟩) (iblk m c 1 ⟨n + 1, h1⟩) p q).trans ?_
    rw [a0]
    exact congrArg (0 + (∑ d : Fin 1024, foundX m c (ix2 P (col 0 d)) * foundW m c (ix2 Q (col 0 d))) + ·)
      (stretch_sum m c ⟨n + 1, h1⟩ 1 (by show (n + 1) % 4 = 1; omega) p q P Q
        (by show P.val = 1024 * ((n + 1) / 16) + p.val; rw [hP]; omega) (by show Q.val = 1024 * ((n + 1) / 4 % 4) + q.val; rw [hQ]; omega))
  have a2 : (outsAt0 m c (n + 2) h2).2 (ix2 p q) = ((0 + (∑ d : Fin 1024, foundX m c (ix2 P (col 0 d)) * foundW m c (ix2 Q (col 0 d)))) + (∑ d : Fin 1024, foundX m c (ix2 P (col 1 d)) * foundW m c (ix2 Q (col 1 d)))) + (∑ d : Fin 1024, foundX m c (ix2 P (col 2 d)) * foundW m c (ix2 Q (col 2 d))) := by
    refine (congrFun (acc_next m c ⟨n + 2, h2⟩ (by show ¬(n + 2) % 4 = 0; omega)) (ix2 p q)).trans ?_
    refine (step_apply (outsAt0 m c (n + 1) h1).2 (iblk m c 0 ⟨n + 2, h2⟩) (iblk m c 1 ⟨n + 2, h2⟩) p q).trans ?_
    rw [a1]
    exact congrArg ((0 + (∑ d : Fin 1024, foundX m c (ix2 P (col 0 d)) * foundW m c (ix2 Q (col 0 d)))) + (∑ d : Fin 1024, foundX m c (ix2 P (col 1 d)) * foundW m c (ix2 Q (col 1 d))) + ·)
      (stretch_sum m c ⟨n + 2, h2⟩ 2 (by show (n + 2) % 4 = 2; omega) p q P Q
        (by show P.val = 1024 * ((n + 2) / 16) + p.val; rw [hP]; omega) (by show Q.val = 1024 * ((n + 2) / 4 % 4) + q.val; rw [hQ]; omega))
  have a3 : (outsAt0 m c (n + 3) h3).2 (ix2 p q) = (((0 + (∑ d : Fin 1024, foundX m c (ix2 P (col 0 d)) * foundW m c (ix2 Q (col 0 d)))) + (∑ d : Fin 1024, foundX m c (ix2 P (col 1 d)) * foundW m c (ix2 Q (col 1 d)))) + (∑ d : Fin 1024, foundX m c (ix2 P (col 2 d)) * foundW m c (ix2 Q (col 2 d)))) + (∑ d : Fin 1024, foundX m c (ix2 P (col 3 d)) * foundW m c (ix2 Q (col 3 d))) := by
    refine (congrFun (acc_next m c ⟨n + 3, h3⟩ (by show ¬(n + 3) % 4 = 0; omega)) (ix2 p q)).trans ?_
    refine (step_apply (outsAt0 m c (n + 2) h2).2 (iblk m c 0 ⟨n + 3, h3⟩) (iblk m c 1 ⟨n + 3, h3⟩) p q).trans ?_
    rw [a2]
    exact congrArg (((0 + (∑ d : Fin 1024, foundX m c (ix2 P (col 0 d)) * foundW m c (ix2 Q (col 0 d)))) + (∑ d : Fin 1024, foundX m c (ix2 P (col 1 d)) * foundW m c (ix2 Q (col 1 d)))) + (∑ d : Fin 1024, foundX m c (ix2 P (col 2 d)) * foundW m c (ix2 Q (col 2 d))) + ·)
      (stretch_sum m c ⟨n + 3, h3⟩ 3 (by show (n + 3) % 4 = 3; omega) p q P Q
        (by show P.val = 1024 * ((n + 3) / 16) + p.val; rw [hP]; omega) (by show Q.val = 1024 * ((n + 3) / 4 % 4) + q.val; rw [hQ]; omega))
  refine (congrFun (out_last m c ⟨n + 3, h3⟩ (by show (n + 3) % 4 = 3; omega)) (ix2 p q)).trans ?_
  refine (epilogue_apply (iblk m c 2 ⟨n + 3, h3⟩) (iblk m c 3 ⟨n + 3, h3⟩) (outsAt0 m c (n + 3) h3).2 (iblk m c 4 ⟨n + 3, h3⟩) p q).trans ?_
  rw [a3, accumulate_four (fun d : Fin 4096 => foundX m c (ix2 P d) * foundW m c (ix2 Q d)),
    bias_block m c ⟨n + 3, h3⟩ q Q (by show Q.val = 1024 * ((n + 3) / 4 % 4) + q.val; rw [hQ]; omega)]
  refine congrArg (((∑ d : Fin 4096, foundX m c (ix2 P d) * foundW m c (ix2 Q d)) + foundBias m c (ix2 (0 : Fin 1) Q)) + · * two)
    (Finset.sum_congr rfl fun r _ => ?_)
  rw [mid_block m c ⟨n + 3, h3⟩ p r P (by show P.val = 1024 * ((n + 3) / 16) + p.val; rw [hP]; omega),
    b_block m c ⟨n + 3, h3⟩ q r Q (by show Q.val = 1024 * ((n + 3) / 4 % 4) + q.val; rw [hQ]; omega)]

end Cert.KernelIdeal.FlushValue

end
-- ==== Proof.Output.lean ====
/-
  The region's result array after the run: the layer of the arrays the region found.

  Only the last point of each run of four writes its output block back, and the sixty-four written blocks (one per
  row-tile and column-tile) tile the 16384 × 4096 result; each is the matching block of ONE whole-array function, the
  layer, so the array ends holding that function.
-/
import proofs.«142753_j39865886442050_2_alg».proof.Proof.FlushValue
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.KernelIdeal.Output

open Cert.KernelIdeal Cert.KernelIdeal.Gen Cert.KernelIdeal.Blocks Cert.KernelIdeal.FlushValue
open Idealize.ShloMosaic.ValueIdx Cert.LoraSpec

variable (m : (ℓ : Loc nD τ sig) → Buf (Elt Ideal) ℓ)

/-- The layer of the five arrays the region reads, as the region finds them. -/
abbrev result (c : Dev nD) : Buf (Elt Ideal) ((c : Thread nD τ).loc main_v8) :=
  layer (foundX m c) (foundW m c) (foundMid m c) (foundB m c) (foundBias m c) two

/-- What a writing point writes back is its block of the layer. -/
theorem flushed_eq (c : Dev nD) (t : Fin cfg0.N) (hf : (cfg0.win 5).flush t = true) :
    (dats m 0 c).flushed 5 t = ((cfg0.win 5).blk t).view.read (Elt Ideal) (result m c) := by
  have h3 : t.val % 4 = 3 := (flush0_5 t).mp hf
  obtain ⟨tv, ht⟩ := t
  obtain ⟨n, rfl⟩ : ∃ n, tv = n + 3 := ⟨tv - 3, by dsimp only at h3; omega⟩
  have hn : n % 4 = 0 := by dsimp only at h3; omega
  have hN : n + 3 < 256 := lt_of_lt_of_eq ht N_0
  obtain ⟨-, -, -, -, -, -, -, -, -, -, i0, i1⟩ := where_blocks ⟨n + 3, ht⟩
  show (cfg0.win 5).cut (grid0.coords ⟨n + 3, ht⟩) ((dats m 0 c).after 5 ⟨n + 3, ht⟩) = _
  rw [after0_5]
  refine funext fun (y : S1024x1024.Idx) => ?_
  obtain ⟨p, q, rfl⟩ : ∃ (p q : Fin 1024), y = ix2 p q := ⟨y 0, y 1, eq_ix2 y⟩
  show (outsAt0 m c (n + 3) ht).1 (ix2 p q) = result m c (((cfg0.win 5).blk ⟨n + 3, ht⟩).view.emb (ix2 p q))
  have hp : p.val < 1024 := p.isLt
  have hq : q.val < 1024 := q.isLt
  have hemb : ((cfg0.win 5).blk ⟨n + 3, ht⟩).view.emb (ix2 p q)
      = ix2 (⟨1024 * (n / 16) + p.val, by omega⟩ : Fin 16384) (⟨1024 * (n / 4 % 4) + q.val, by omega⟩ : Fin 4096) := by
    funext a; apply Fin.ext
    match a with
    | ⟨0, _⟩ => show win0_5.index ⟨n + 3, ht⟩ 0 * 1024 + 1 * p.val = 1024 * (n / 16) + p.val; rw [i0]; show (n + 3) / 16 * 1024 + 1 * p.val = _; omega
    | ⟨1, _⟩ => show win0_5.index ⟨n + 3, ht⟩ 1 * 1024 + 1 * q.val = 1024 * (n / 4 % 4) + q.val; rw [i1]; show (n + 3) / 4 % 4 * 1024 + 1 * q.val = _; omega
  rw [hemb]
  exact last_point_value m c n ht hn p q _ _ rfl rfl

/-- An index of the result is in point `t`'s block iff each coordinate is in the block's range on its axis. -/
theorem mem_blk (t : Fin cfg0.N) (i : S16384x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v8).slice (win0_5.rect t)).set ↔ _
  rw [View.set_slice_whole, Rect.mem_set_unit]
  exact Iff.rfl

/-- Every entry of the result is in the block of the last point of its tile's run. -/
theorem covered (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  have hlt : 16 * ((i 0).val / 1024) + 4 * ((i 1).val / 1024) + 3 < cfg0.N := by
    rw [show cfg0.N = 256 from N_0]; omega
  obtain ⟨-, -, -, -, -, -, -, -, -, -, i0, i1⟩ := where_blocks ⟨16 * ((i 0).val / 1024) + 4 * ((i 1).val / 1024) + 3, hlt⟩
  refine ⟨⟨16 * ((i 0).val / 1024) + 4 * ((i 1).val / 1024) + 3, hlt⟩, (flush0_5 _).mpr (by
    show (16 * ((i 0).val / 1024) + 4 * ((i 1).val / 1024) + 3) % 4 = 3; omega), ?_⟩
  rw [mem_blk]
  intro a
  match a with
  | ⟨0, _⟩ =>
    show win0_5.index _ 0 * 1024 ≤ (i 0).val ∧ (i 0).val < win0_5.index _ 0 * 1024 + 1024
    rw [i0]
    show (16 * ((i 0).val / 1024) + 4 * ((i 1).val / 1024) + 3) / 16 * 1024 ≤ (i 0).val
      ∧ (i 0).val < (16 * ((i 0).val / 1024) + 4 * ((i 1).val / 1024) + 3) / 16 * 1024 + 1024
    omega
  | ⟨1, _⟩ =>
    show win0_5.index _ 1 * 1024 ≤ (i 1).val ∧ (i 1).val < win0_5.index _ 1 * 1024 + 1024
    rw [i1]
    show (16 * ((i 0).val / 1024) + 4 * ((i 1).val / 1024) + 3) / 4 % 4 * 1024 ≤ (i 1).val
      ∧ (i 1).val < (16 * ((i 0).val / 1024) + 4 * ((i 1).val / 1024) + 3) / 4 % 4 * 1024 + 1024
    omega

/-- So the region's result array ends holding the layer. -/
theorem final (c : Dev nD) : (dats m 0 c).arrAt 5 cfg0.N = result m c :=
  (dats m 0 c).arrAt_eq_of_cover 5 (result m c) (flushed_eq m c) covered

end Cert.KernelIdeal.Output

end
-- ==== Proof.Bridge.lean ====
/-
  From the layer on the flattened activations to the layer on the batched ones.

  The activations come as a [4, 4096, 4096] array `x`; flattening its two leading axes gives the 16384 × 4096 matrix
  whose row `4096·b + s` is `x[b, s, ·]`, and un-flattening a 16384 × 4096 result puts row `4096·b + s` at `[b, s, ·]`
  (both are the same row-major position). The bias vector viewed as a 1 × 4096 row reads the same entries. With the
  rank-16 intermediate equal to `Σ_d x[b,s,d] · a[r,d]`, the layer of Spec.lean, un-flattened, is the batched formula

      (Σ_d x[b,s,d] · w[o,d] + bias[o]) + (Σ_r (Σ_d x[b,s,d] · a[r,d]) · b[o,r]) · two.
-/
import proofs.«142753_j39865886442050_2_alg».proof.Proof.Spec
import Idealize.ShloMosaic.Lib.Pipeline.Value

noncomputable section

open scoped BigOperators

namespace Cert.LoraSpec

open Idealize.ShloMosaic Idealize.ShloMosaic.ValueIdx

/-- The batched activations' shape and the flattened one. -/
abbrev Batched : Shape := ⟨3, ![4, 4096, 4096]⟩
abbrev Flat : Shape := ⟨2, ![16384, 4096]⟩

/-- Row `4096·b + s` of the flattened matrix: position `s` of batch `b`. -/
abbrev row (b : Fin 4) (s : Fin 4096) : Fin 16384 := ⟨4096 * b.val + s.val, by omega⟩

/-- Flattening the two leading axes: row `4096·b + s`, column `d` is entry `[b, s, d]`. -/
theorem flatten_apply {α : Type} (x : Batched.Idx → α) (h : Batched.ShapeCasts Flat) (b : Fin 4) (s : Fin 4096) (d : Fin 4096) :
    shapeCast Flat x h (ix2 (row b s) d) = x (ix3 b s d) :=
  shapeCast_apply x h _ _ (by
    rw [Shape.rowMajor_val_three, Shape.rowMajor_val_two]
    show (b.val * 4096 + s.val) * 4096 + d.val = (4096 * b.val + s.val) * 4096 + d.val
    omega)

/-- Un-flattening: entry `[b, s, o]` is row `4096·b + s`, column `o`. -/
theorem unflatten_apply {α : Type} (y : Flat.Idx → α) (h : Flat.ShapeCasts Batched) (b : Fin 4) (s : Fin 4096) (o : Fin 4096) :
    shapeCast Batched y h (ix3 b s o) = y (ix2 (row b s) o) :=
  shapeCast_apply y h _ _ (by
    rw [Shape.rowMajor_val_three, Shape.rowMajor_val_two]
    show (4096 * b.val + s.val) * 4096 + o.val = (b.val * 4096 + s.val) * 4096 + o.val
    omega)

/-- A vector viewed as a one-row matrix reads the same entries. -/
theorem as_row_apply {α : Type} (v : (⟨1, ![4096]⟩ : Shape).Idx → α) (h : (⟨1, ![4096]⟩ : Shape).ShapeCasts ⟨2, ![1, 4096]⟩)
    (q : Fin 4096) : shapeCast ⟨2, ![1, 4096]⟩ v h (ix2 (0 : Fin 1) q) = v (ix1 q) :=
  shapeCast_apply v h _ _ (by
    rw [Shape.rowMajor_val_one, Shape.rowMajor_val_two]
    show q.val = 0 * 4096 + q.val
    omega)

/-- The batched formula, entry by entry. -/
def batched (x : Batched.Idx → EReal) (w : (⟨2, ![4096, 4096]⟩ : Shape).Idx → EReal) (bias : (⟨1, ![4096]⟩ : Shape).Idx → EReal)
    (a : (⟨2, ![16, 4096]⟩ : Shape).Idx → EReal) (b : (⟨2, ![4096, 16]⟩ : Shape).Idx → EReal) (two : EReal) : Batched.Idx → EReal :=
  fun i => ((∑ d : Fin 4096, x (ix3 (i 0) (i 1) d) * w (ix2 (i 2) d)) + bias (ix1 (i 2)))
    + (∑ r : Fin 16, (∑ d : Fin 4096, x (ix3 (i 0) (i 1) d) * a (ix2 r d)) * b (ix2 (i 2) r)) * two

/-- The layer on the flattened activations, un-flattened, is the batched formula — given that the rank-16 intermediate
    is the flattened activations' rows against the down-projection's rows. -/
theorem unflatten_layer (x : Batched.Idx → EReal) (w : (⟨2, ![4096, 4096]⟩ : Shape).Idx → EReal)
    (bias : (⟨1, ![4096]⟩ : Shape).Idx → EReal) (a : (⟨2, ![16, 4096]⟩ : Shape).Idx → EReal)
    (b : (⟨2, ![4096, 16]⟩ : Shape).Idx → EReal) (two : EReal)
    (hx : Batched.ShapeCasts Flat) (hb : (⟨1, ![4096]⟩ : Shape).ShapeCasts ⟨2, ![1, 4096]⟩) (hy : Flat.ShapeCasts Batched)
    (mid : (⟨2, ![16384, 16]⟩ : Shape).Idx → EReal)
    (hmid : ∀ (p : Fin 16384) (r : Fin 16), mid (ix2 p r) = ∑ d : Fin 4096, shapeCast Flat x hx (ix2 p d) * a (ix2 r d)) :
    shapeCast Batched (layer (shapeCast Flat x hx) w mid b (shapeCast ⟨2, ![1, 4096]⟩ bias hb) two) hy
      = batched x w bias a b two := by
  funext i
  obtain ⟨p, s, o, rfl⟩ : ∃ (p : Fin 4) (s : Fin 4096) (o : Fin 4096), i = ix3 p s o := ⟨i 0, i 1, i 2, eq_ix3 i⟩
  rw [unflatten_apply]
  show ((∑ d : Fin 4096, shapeCast Flat x hx (ix2 (row p s) d) * w (ix2 o d)) + shapeCast ⟨2, ![1, 4096]⟩ bias hb (ix2 (0 : Fin 1) o))
      + (∑ r : Fin 16, mid (ix2 (row p s) r) * b (ix2 o r)) * two
    = ((∑ d : Fin 4096, x (ix3 p s d) * w (ix2 o d)) + bias (ix1 o))
      + (∑ r : Fin 16, (∑ d : Fin 4096, x (ix3 p s d) * a (ix2 r d)) * b (ix2 o r)) * two
  simp only [hmid, flatten_apply, as_row_apply]

end Cert.LoraSpec

end
-- ==== Proof.KernelValue.lean ====
/-
  The kernel program's result, as a function of its five arguments: the batched formula of Bridge.lean.

  Before the region the host flattens the activations to 16384 × 4096, views the bias as a one-row matrix, changes
  float formats (the identity on extended reals) and contracts the flattened activations' rows against the
  down-projection's rows into the rank-16 intermediate. The region leaves the layer of those arrays in its result
  (Output.lean), and the one host operation after it un-flattens that result to [4, 4096, 4096].
-/
import proofs.«142753_j39865886442050_2_alg».proof.Proof.Output
import proofs.«142753_j39865886442050_2_alg».proof.Proof.Bridge
import proofs.«142753_j39865886442050_2_alg».proof.Proof.LibContractRows
import Idealize.ShloMosaic.Lib.StableHlo.Run
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Output Cert.KernelIdeal.FlushValue
open Idealize.ShloMosaic.ValueIdx Cert.LoraSpec

variable (m : (ℓ : Loc nD τ sig) → Buf (Elt Ideal) ℓ) (ρ : Dev nD → PrngReg)

/-- The program's five arguments, as arrays of extended reals: the activations, the weight, the bias, the
    down-projection and the up-projection. -/
abbrev argX (c : Dev nD) : S4x4096x4096.Idx → EReal := m ((c.tc : Thread nD τ).loc main_arg0)
abbrev argW (c : Dev nD) : S4096x4096.Idx → EReal := m ((c.tc : Thread nD τ).loc main_arg1)
abbrev argBias (c : Dev nD) : S4096.Idx → EReal := m ((c.tc : Thread nD τ).loc main_arg2)
abbrev argA (c : Dev nD) : S16x4096.Idx → EReal := m ((c.tc : Thread nD τ).loc main_arg3)
abbrev argB (c : Dev nD) : S4096x16.Idx → EReal := m ((c.tc : Thread nD τ).loc main_arg4)

/-- The region finds the activations flattened. -/
theorem found_x (c : Dev nD) :
    foundX m c = shapeCast S16384x4096 (argX m c) shapeCasts_S4x4096x4096_S16384x4096 := by
  show StableHlo.after hostOps0 (fun b => m (c, b)) (Proc.devRef .tc main_v2) = _
  after_results
  rfl

/-- The region finds the weight as given. -/
theorem found_w (c : Dev nD) : foundW m c = (argW m c) := by
  show StableHlo.after hostOps0 (fun b => m (c, b)) (Proc.devRef .tc main_v3) = _
  after_results
  rfl

/-- The region finds the up-projection as given. -/
theorem found_b (c : Dev nD) : foundB m c = (argB m c) := by
  show StableHlo.after hostOps0 (fun b => m (c, b)) (Proc.devRef .tc main_v5) = _
  after_results
  rfl

/-- The region finds the bias as a one-row matrix. -/
theorem found_bias (c : Dev nD) :
    foundBias m c = shapeCast S1x4096 (argBias m c) shapeCasts_S4096_S1x4096 := by
  show StableHlo.after hostOps0 (fun b => m (c, b)) (Proc.devRef .tc main_v1) = _
  after_results
  rfl

/-- The region finds the rank-16 intermediate: the flattened activations' rows against the down-projection's rows. -/
theorem found_mid (c : Dev nD) (P : Fin 16384) (r : Fin 16) :
    foundMid m c (ix2 P r)
      = ∑ d : Fin 4096, shapeCast S16384x4096 (argX m c) shapeCasts_S4x4096x4096_S16384x4096 (ix2 P d)
          * (argA m c) (ix2 r d) := by
  have e : foundMid m c
      = Host.dotGeneral (F := Ideal) (φ₁ := .bf16) (φ₂ := .bf16) dot_S16384x4096_S16x4096_S16384x16_1_1_0_0_n_n none
          (shapeCast S16384x4096 (argX m c) shapeCasts_S4x4096x4096_S16384x4096 : FVec Ideal S16384x4096 .bf16)
          ((argA m c) : FVec Ideal S16x4096 .bf16) := by
    show StableHlo.after hostOps0 (fun b => m (c, b)) (Proc.devRef .tc main_v7) = _
    after_results
    rfl
  rw [e]
  exact ContractRows.dotGeneral_apply (φ₁ := .bf16) (φ₂ := .bf16) none .single _ _ P r

/-- The layer of the arrays the region finds, un-flattened, is the batched formula of the arguments. -/
theorem result_eq (c : Dev nD) :
    shapeCast S4x4096x4096 (result m c) shapeCasts_S16384x4096_S4x4096x4096
      = batched (argX m c) (argW m c) (argBias m c) (argA m c) (argB m c) two := by
  show shapeCast S4x4096x4096 (layer (foundX m c) (foundW m c) (foundMid m c) (foundB m c) (foundBias m c) two) shapeCasts_S16384x4096_S4x4096x4096 = _
  rw [found_x, found_w, found_b, found_bias]
  exact unflatten_layer (argX m c) (argW m c) (argBias m c) (argA m c) (argB m c) two
    shapeCasts_S4x4096x4096_S16384x4096 shapeCasts_S4096_S1x4096 shapeCasts_S16384x4096_S4x4096x4096 (foundMid m c) (found_mid m c)

/-- The host operation after the region un-flattens the region's result. -/
theorem tail_eq (c : Dev nD) :
    Pipeline.afterTail₀ cfgs (dats m) 0 (V0 m) [hostOps1] c main_v9
      = shapeCast S4x4096x4096 (result m c) shapeCasts_S16384x4096_S4x4096x4096 := by
  unfold Pipeline.afterTail₀
  show StableHlo.after hostOps1 _ (Proc.devRef .tc main_v9) = _
  after_results
  rw [(Pipeline.withArrays_arr spec0 launch0.win.arr_inj c _ _ 5).trans (final m c)]
  rfl

/-- The run: every weakly fair execution ends with the result at the batched formula and the arguments unchanged. -/
theorem run : θ_run defs (onTc (τ := τ) (main (F := Ideal))) ⟨m, fun _ => 0, ρ⟩ fun r => ∀ c : Dev nD,
      r.2.mem ((c.tc : Thread nD τ).loc main_v9)
        = batched (argX m c) (argW m c) (argBias m c) (argA m c) (argB m c) two
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v9 (Pipeline.mem_restRefs_of main_v9 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.RefIsSpec.lean ====
/-
  The reference computes the batched formula.

  Its result at `[p, s, o]` is read one operation at a time: the three contractions are plain sums on the extended reals
  (rows of the activations against rows of the weight, of the down-projection, and the rank-16 intermediate against
  rows of the up-projection), the bias is broadcast along the two leading axes, and the scale is the literal 2.0.
-/
import proofs.«142753_j39865886442050_2_alg».proof.Proof.Gen.ReferenceIdeal.Read
import proofs.«142753_j39865886442050_2_alg».proof.Proof.Bridge

noncomputable section

open scoped BigOperators

namespace Cert.ReferenceIdeal.RefValue

open Cert.ReferenceIdeal Cert.ReferenceIdeal.Read Idealize.ShloMosaic Idealize.ShloMosaic.ValueIdx Cert.LoraSpec

/-- The reference's result, as a function of its five arguments, is the batched formula. -/
theorem reference_eq (x : (⟨S4x4096x4096, .f32⟩ : BufTy).Contents (Elt Ideal)) (w : (⟨S4096x4096, .f32⟩ : BufTy).Contents (Elt Ideal))
    (bias : (⟨S4096, .f32⟩ : BufTy).Contents (Elt Ideal)) (a : (⟨S16x4096, .f32⟩ : BufTy).Contents (Elt Ideal))
    (b : (⟨S4096x16, .f32⟩ : BufTy).Contents (Elt Ideal)) :
    val_main_v8 (F := Ideal) x w bias a b = batched x w bias a b two := by
  funext i
  obtain ⟨p, s, o, rfl⟩ : ∃ (p : Fin 4) (s : Fin 4096) (o : Fin 4096), i = ix3 p s o := ⟨i 0, i 1, i 2, eq_ix3 i⟩
  have e0l : ∀ k : Fin 4096, lidx_main_v0 (ix3 p s o) k = ix3 p s k := fun k => funext fun c => Fin.ext (by
    match c with | ⟨0, _⟩ => rfl | ⟨1, _⟩ => rfl | ⟨2, _⟩ => rfl)
  have e0r : ∀ k : Fin 4096, ridx_main_v0 (ix3 p s o) k = ix2 o k := fun k => funext fun c => Fin.ext (by
    match c with | ⟨0, _⟩ => rfl | ⟨1, _⟩ => rfl)
  have e1 : idx_main_v1 (idx_main_v2 (ix3 p s o)) = ix1 o := funext fun c => Fin.ext (by
    match c with | ⟨0, _⟩ => rfl)
  have e5l : ∀ r : Fin 16, lidx_main_v5 (ix3 p s o) r = ix3 p s r := fun r => funext fun c => Fin.ext (by
    match c with | ⟨0, _⟩ => rfl | ⟨1, _⟩ => rfl | ⟨2, _⟩ => rfl)
  have e5r : ∀ r : Fin 16, ridx_main_v5 (ix3 p s o) r = ix2 o r := fun r => funext fun c => Fin.ext (by
    match c with | ⟨0, _⟩ => rfl | ⟨1, _⟩ => rfl)
  have e4l : ∀ (r : Fin 16) (k : Fin 4096), lidx_main_v4 (ix3 p s r) k = ix3 p s k := fun r k => funext fun c => Fin.ext (by
    match c with | ⟨0, _⟩ => rfl | ⟨1, _⟩ => rfl | ⟨2, _⟩ => rfl)
  have e4r : ∀ (r : Fin 16) (k : Fin 4096), ridx_main_v4 (ix3 p s r) k = ix2 r k := fun r k => funext fun c => Fin.ext (by
    match c with | ⟨0, _⟩ => rfl | ⟨1, _⟩ => rfl)
  rw [val_main_v8_apply, val_main_v3_apply, val_main_v7_apply, val_main_v0_apply, val_main_v2_apply, val_main_v1_apply,
    val_main_v5_apply, val_main_v6_apply, val_main_cst_apply]
  simp only [val_main_v4_apply, e0l, e0r, e1, e5l, e5r, e4l, e4r]
  rfl

end Cert.ReferenceIdeal.RefValue

end
-- ==== Proof.lean ====
/-
  The certificate of a low-rank-adapted linear layer: a tiled kernel against its einsum reference.

  Both programs compute, for activations `x` [4, 4096, 4096], a weight `w` [4096, 4096], a bias [4096], a
  down-projection `a` [16, 4096] and an up-projection `b` [4096, 16],

      out[p, s, o] = (Σ_d x[p,s,d] · w[o,d] + bias[o]) + (Σ_r (Σ_d x[p,s,d] · a[r,d]) · b[o,r]) · 2.

  The reference does so in three contractions over the batched arrays. The kernel program flattens the two leading
  axes, forms the rank-16 intermediate once on the host, and tiles the output in 1024 × 1024 blocks, accumulating the
  big contraction over four stretches of 1024 columns in a scratch buffer that is reset at the first stretch; at the
  last stretch it adds the bias and twice the rank-16 term. On the extended reals a change of float format is the
  identity and a matrix product into a zero accumulator is a plain sum, so the kernel's blocked sum differs from the
  reference's only by the order and grouping of additions, which are commutative and associative there: the claim
  needs no finiteness of the inputs.

  The frames of the two kernel programs are the generated ones; the reference's frame is its generated run with the
  result dropped; the idealization rewrote nothing; the value claim joins Proof/KernelValue.lean (the kernel program
  ends at the batched formula) with Proof/RefIsSpec.lean (so does the reference).
-/
import proofs.«142753_j39865886442050_2_alg».proof.Defs
import proofs.«142753_j39865886442050_2_alg».proof.Proof.Gen.Kernel
import proofs.«142753_j39865886442050_2_alg».proof.Proof.Gen.Kernel.Skeleton
import proofs.«142753_j39865886442050_2_alg».proof.Proof.Gen.Kernel.Launch
import proofs.«142753_j39865886442050_2_alg».proof.Proof.Gen.Kernel.Points
import proofs.«142753_j39865886442050_2_alg».proof.Proof.Gen.Kernel.Frame
import proofs.«142753_j39865886442050_2_alg».proof.Proof.Gen.KernelIdeal
import proofs.«142753_j39865886442050_2_alg».proof.Proof.Gen.KernelIdeal.Skeleton
import proofs.«142753_j39865886442050_2_alg».proof.Proof.Gen.KernelIdeal.Launch
import proofs.«142753_j39865886442050_2_alg».proof.Proof.Gen.KernelIdeal.Points
import proofs.«142753_j39865886442050_2_alg».proof.Proof.Gen.KernelIdeal.Frame
import proofs.«142753_j39865886442050_2_alg».proof.Proof.Gen.ReferenceIdeal
import proofs.«142753_j39865886442050_2_alg».proof.Proof.Gen.ReferenceIdeal.Run
import proofs.«142753_j39865886442050_2_alg».proof.Proof.Gen.ReferenceIdeal.Read
import proofs.«142753_j39865886442050_2_alg».proof.Proof.Gen.Pre_finite_inputs
import proofs.«142753_j39865886442050_2_alg».proof.Proof.KernelValue
import proofs.«142753_j39865886442050_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end at the batched formula of arguments that agree. -/
theorem algebraic : Cert.algebraic_KernelIdeal_ReferenceIdeal := by
  intro m ρ m' ρ' _ hagree
  refine ⟨fun c => Cert.LoraSpec.batched (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) Cert.LoraSpec.two,
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.RefValue.reference_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
